-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S200000 : Shape := ⟨1, ![200000]⟩
abbrev S600000 : Shape := ⟨1, ![600000]⟩
abbrev S2x128x128 : Shape := ⟨3, ![2, 128, 128]⟩
abbrev S2x128 : Shape := ⟨2, ![2, 128]⟩
abbrev S1000x128 : Shape := ⟨2, ![1000, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S1000x128 : S_.BroadcastsInDim S1000x128 (![] : Fin 0 → Fin S1000x128.rank)
  reducesTo_S1000x128_S_d0_1 : S1000x128.ReducesTo [0, 1] S_

variable [Facts]

def fn_part1 {F : FTy → Type} [FloatOps F] (main_arg7 : FVec F S2x128 .f32) (main_arg8 : FVec F S1000x128 .f32) (main_v13 : IVec S_ 1) (main_v16 : IVec S2x128x128 1) : IVec S_ 1 :=
  let main_c_5 : IVec S_ 1 := constantI S_ 1 1#1
  let main_v17 : IVec S_ 1 := (fun x v => Host.reduce IntOp.andi x v reducesTo_S2x128x128_S_d0_1_2 h_S_) main_v16 main_c_5
  let main_v18 : IVec S_ 1 := andi main_v13 main_v17
  let main_v19 : FVec F S2x128 .f32 := Host.absf main_arg7
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  let main_v24 : FVec F S1000x128 .f32 := Host.absf main_arg8
  let main_cst_8 : FVec F S_ .f32 := constant S_ .f32 0x7F800000#32
  let main_v25 : FVec F S1000x128 .f32 := broadcastInDim S1000x128 ![] bcast_S_S1000x128 main_cst_8
  let main_v26 : IVec S1000x128 1 := cmpf .olt main_v24 main_v25
  let main_c_9 : IVec S_ 1 := constantI S_ 1 1#1
  let main_v27 : IVec S_ 1 := (fun x v => Host.reduce IntOp.andi x v reducesTo_S1000x128_S_d0_1 h_S_) main_v26 main_c_9
  let main_v28 : IVec S_ 1 := andi main_v23 main_v27
  main_v28

def fn {F : FTy → Type} [FloatOps F] (main_arg0 : FVec F S50000x128 .f32) (main_arg1 : IVec S2x600000 32) (main_arg2 : IVec S200000 32) (main_arg3 : IVec S200000 32) (main_arg4 : FVec F S600000 .f32) (main_arg5 : FVec F S2x128x128 .f32) (main_arg6 : FVec F S2x128x128 .f32) (main_arg7 : FVec F S2x128 .f32) (main_arg8 : FVec F S1000x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000 .f32 := Host.absf main_arg4
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S2x128x128 .f32 := Host.absf main_arg5
  let main_cst_2 : FVec F S_ .f32 := constant S_ .f32 0x7F800000#32
  let main_v10 : FVec F S2x128x128 .f32 := broadcastInDim S2x128x128 ![] bcast_S_S2x128x128 main_cst_2
  let main_v11 : IVec S2x128x128 1 := cmpf .olt main_v9 main_v10
  let main_c_3 : IVec S_ 1 := constantI S_ 1 1#1
  let main_v12 : IVec S_ 1 := (fun x v => Host.reduce IntOp.andi x v reducesTo_S2x128x128_S_d0_1_2 h_S_) main_v11 main_c_3
  let main_v13 : IVec S_ 1 := andi main_v8 main_v12
  let main_v14 : FVec F S2x128x128 .f32 := Host.absf main_arg6
  let main_cst_4 : FVec F S_ .f32 := constant S_ .f32 0x7F800000#32
  let main_v15 : FVec F S2x128x128 .f32 := broadcastInDim S2x128x128 ![] bcast_S_S2x128x128 main_cst_4
  let main_v16 : IVec S2x128x128 1 := cmpf .olt main_v14 main_v15
  fn_part1 (F := F) main_arg7 main_arg8 main_v13 main_v16
-- ==== Kernel.lean ====
abbrev S50000x128 : Shape := ⟨2, ![50000, 128]⟩
abbrev S2x600000 : Shape := ⟨2, ![2, 600000]⟩
abbrev S200000 : Shape := ⟨1, ![200000]⟩
abbrev S600000 : Shape := ⟨1, ![600000]⟩
abbrev S2x128x128 : Shape := ⟨3, ![2, 128, 128]⟩
abbrev S2x128 : Shape := ⟨2, ![2, 128]⟩
abbrev S1000x128 : Shape := ⟨2, ![1000, 128]⟩
abbrev S1x600000 : Shape := ⟨2, ![1, 600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S200000x1 : Shape := ⟨2, ![200000, 1]⟩
abbrev S200000x128 : Shape := ⟨2, ![200000, 128]⟩

abbrev nBuf : Space → Nat
  | .hbm => 98
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S200000, .i32⟩
  | .hbm, ⟨3, _⟩ => ⟨S200000, .i32⟩
  | .hbm, ⟨4, _⟩ => ⟨S600000, .f32⟩
  | .hbm, ⟨5, _⟩ => ⟨S2x128x128, .f32⟩
  | .hbm, ⟨6, _⟩ => ⟨S2x128x128, .f32⟩
  | .hbm, ⟨7, _⟩ => ⟨S2x128, .f32⟩
  | .hbm, ⟨8, _⟩ => ⟨S1000x128, .f32⟩
  | .hbm, ⟨9, _⟩ => ⟨S1x600000, .i32⟩
  | .hbm, ⟨10, _⟩ => ⟨S600000, .i32⟩
  | .hbm, ⟨11, _⟩ => ⟨S1x600000, .i32⟩
  | .hbm, ⟨12, _⟩ => ⟨S600000, .i32⟩
  | .hbm, ⟨13, _⟩ => ⟨S_, .i32⟩
  | .hbm, ⟨14, _⟩ => ⟨S600000, .i32⟩
  | .hbm, ⟨15, _⟩ => ⟨S600000, .i1⟩
  | .hbm, ⟨16, _⟩ => ⟨S_, .i32⟩
  | .hbm, ⟨17, _⟩ => ⟨S600000, .i32⟩
  | .hbm, ⟨18, _⟩ => ⟨S600000, .i32⟩
  | .hbm, ⟨19, _⟩ => ⟨S600000, .i32⟩
  | .hbm, ⟨20, _⟩ => ⟨S600000x1, .i32⟩
  | .hbm, ⟨21, _⟩ => ⟨S600000x128, .f32⟩
  | .hbm, ⟨22, _⟩ => ⟨S600000x1, .f32⟩
  | .hbm, ⟨23, _⟩ => ⟨S600000x128, .f32⟩
  | .hbm, ⟨24, _⟩ => ⟨S600000x128, .f32⟩
  | .hbm, ⟨25, _⟩ => ⟨S_, .f32⟩
  | .hbm, ⟨26, _⟩ => ⟨S50000x128, .f32⟩
  | .hbm, ⟨27, _⟩ => ⟨S600000x1, .i32⟩
  | .hbm, ⟨28, _⟩ => ⟨S50000x128, .f32⟩
  | .hbm, ⟨29, _⟩ => ⟨S_, .f32⟩
  | .hbm, ⟨30, _⟩ => ⟨S50000, .f32⟩
  | .hbm, ⟨31, _⟩ => ⟨S600000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S50000x128, .f32⟩
  | .hbm, ⟨39, _⟩ => ⟨S1x128x128, .f32⟩
  | .hbm, ⟨40, _⟩ => ⟨S128x128, .f32⟩
  | .hbm, ⟨41, _⟩ => ⟨S1x128x128, .f32⟩
  | .hbm, ⟨42, _⟩ => ⟨S128x128, .f32⟩
  | .hbm, ⟨43, _⟩ => ⟨S1x128, .f32⟩
  | .hbm, ⟨44, _⟩ => ⟨S128, .f32⟩
  | .hbm, ⟨45, _⟩ => ⟨S50000x128, .f32⟩
  | .hbm, ⟨46, _⟩ => ⟨S_, .i32⟩
  | .hbm, ⟨47, _⟩ => ⟨S600000, .i32⟩
  | .hbm, ⟨48, _⟩ => ⟨S600000, .i1⟩
  | .hbm, ⟨49, _⟩ => ⟨S_, .i32⟩
  | .hbm, ⟨50, _⟩ => ⟨S600000, .i32⟩
  | .hbm, ⟨51, _⟩ => ⟨S600000, .i32⟩
  | .hbm, ⟨52, _⟩ => ⟨S600000, .i32⟩
  | .hbm, ⟨53, _⟩ => ⟨S600000x1, .i32⟩
  | .hbm, ⟨54, _⟩ => ⟨S600000x128, .f32⟩
  | .hbm, ⟨55, _⟩ => ⟨S600000x1, .f32⟩
  | .hbm, ⟨56, _⟩ => ⟨S600000x128, .f32⟩
  | .hbm, ⟨57, _⟩ => ⟨S600000x128, .f32⟩
  | .hbm, ⟨58, _⟩ => ⟨S_, .f32⟩
  | .hbm, ⟨59, _⟩ => ⟨S50000x128, .f32⟩
  | .hbm, ⟨60, _⟩ => ⟨S600000x1, .i32⟩
  | .hbm, ⟨61, _⟩ => ⟨S50000x128, .f32⟩
  | .hbm, ⟨62, _⟩ => ⟨S_, .f32⟩
  | .hbm, ⟨63, _⟩ => ⟨S50000, .f32⟩
  | .hbm, ⟨64, _⟩ => ⟨S600000x1, .i32⟩
  | .hbm, ⟨65, _⟩ => ⟨S50000, .f32⟩
  | .hbm, ⟨66, _⟩ => ⟨S_, .f32⟩
  | .hbm, ⟨67, _⟩ => ⟨S50000, .f32⟩
  | .hbm, ⟨68, _⟩ => ⟨S50000, .f32⟩
  | .hbm, ⟨69, _⟩ => ⟨S50000x1, .f32⟩
  | .hbm, ⟨70, _⟩ => ⟨S50000x128, .f32⟩
  | .hbm, ⟨71, _⟩ => ⟨S50000x128, .f32⟩
  | .hbm, ⟨72, _⟩ => ⟨S1x128x128, .f32⟩
  | .hbm, ⟨73, _⟩ => ⟨S128x128, .f32⟩
  | .hbm, ⟨74, _⟩ => ⟨S1x128x128, .f32⟩
  | .hbm, ⟨75, _⟩ => ⟨S128x128, .f32⟩
  | .hbm, ⟨76, _⟩ => ⟨S1x128, .f32⟩
  | .hbm, ⟨77, _⟩ => ⟨S128, .f32⟩
  | .hbm, ⟨78, _⟩ => ⟨S50000x128, .f32⟩
  | .hbm, ⟨79, _⟩ => ⟨S_, .i32⟩
  | .hbm, ⟨80, _⟩ => ⟨S200000, .i32⟩
  | .hbm, ⟨81, _⟩ => ⟨S200000, .i1⟩
  | .hbm, ⟨82, _⟩ => ⟨S_, .i32⟩
  | .hbm, ⟨83, _⟩ => ⟨S200000, .i32⟩
  | .hbm, ⟨84, _⟩ => ⟨S200000, .i32⟩
  | .hbm, ⟨85, _⟩ => ⟨S200000, .i32⟩
  | .hbm, ⟨86, _⟩ => ⟨S200000x1, .i32⟩
  | .hbm, ⟨87, _⟩ => ⟨S200000x128, .f32⟩
  | .hbm, ⟨88, _⟩ => ⟨S_, .i32⟩
  | .hbm, ⟨89, _⟩ => ⟨S200000, .i32⟩
  | .hbm, ⟨90, _⟩ => ⟨S200000, .i1⟩
  | .hbm, ⟨91, _⟩ => ⟨S_, .i32⟩
  | .hbm, ⟨92, _⟩ => ⟨S200000, .i32⟩
  | .hbm, ⟨93, _⟩ => ⟨S200000, .i32⟩
  | .hbm, ⟨94, _⟩ => ⟨S200000, .i32⟩
  | .hbm, ⟨95, _⟩ => ⟨S200000x1, .i32⟩
  | .hbm, ⟨96, _⟩ => ⟨S200000x128, .f32⟩
  | .hbm, ⟨97, _⟩ => ⟨S200000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_3 : Ref sig .tc := ⟨.hbm, 46, rfl⟩
abbrev main_v32 : Ref sig .tc := ⟨.hbm, 47, rfl⟩
abbrev main_v33 : Ref sig .tc := ⟨.hbm, 48, rfl⟩
abbrev main_c_4 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_5 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_6 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_7 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_c_8 : Ref sig .tc := ⟨.hbm, 79, rfl⟩
abbrev main_v60 : Ref sig .tc := ⟨.hbm, 80, rfl⟩
abbrev main_v61 : Ref sig .tc := ⟨.hbm, 81, rfl⟩
abbrev main_c_9 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_c_10 : Ref sig .tc := ⟨.hbm, 88, rfl⟩
abbrev main_v67 : Ref sig .tc := ⟨.hbm, 89, rfl⟩
abbrev main_v68 : Ref sig .tc := ⟨.hbm, 90, rfl⟩
abbrev main_c_11 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S5000x128 : S1x128.Broadcasts S5000x128
  slices_S2x128x128_S1x128x128_1_0_0 : S2x128x128.Slices ![1, 0, 0] S1x128x128
  slices_S2x128_S1x128_1_0 : S2x128.Slices ![1, 0] S1x128
  bcast_S_S200000 : S_.BroadcastsInDim S200000 (![] : Fin 0 → Fin S200000.rank)
  bcast_S200000_S200000x1_0 : S200000.BroadcastsInDim S200000x1 (![0] : Fin 1 → Fin S200000x1.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S5000x128_S128x128_S5000x128_1_0_0_1_n_n_wf : DotDims.WF S5000x128 S128x128 S5000x128 [1] [0] [0] [1] [] []
  gather_S50000x128_S200000x1_S200000x128_1_0_n_n_0_1_1128_wf : GatherDims.WF S50000x128 S200000x1 S200000x128 [1] [0] [] [0] [] 1 ![1, 128]
  gather_S1000x128_S200000x1_S200000x128_1_0_n_n_0_1_1128_wf : GatherDims.WF S1000x128 S200000x1 S200000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def gather_S1000x128_S200000x1_S200000x128_1_0_n_n_0_1_1128 : GatherDims S1000x128 S200000x1 S200000x128 where
  offsetDims := [1]
  collapsedSliceDims := [0]
  operandBatchingDims := []
  startIndicesBatchingDims := []
  startIndexMap := [0]
  indexVectorDim := 1
  sliceSizes := ![1, 128]
  wf := gather_S1000x128_S200000x1_S200000x128_1_0_n_n_0_1_1128_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v54) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v56) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v58) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v59) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S200000 : Shape := ⟨1, ![200000]⟩
abbrev S600000 : Shape := ⟨1, ![600000]⟩
abbrev S2x128x128 : Shape := ⟨3, ![2, 128, 128]⟩
abbrev S2x128 : Shape := ⟨2, ![2, 128]⟩
abbrev S1000x128 : Shape := ⟨2, ![1000, 128]⟩
abbrev S1x600000 : Shape := ⟨2, ![1, 600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S200000x1 : Shape := ⟨2, ![200000, 1]⟩
abbrev S200000x128 : Shape := ⟨2, ![200000, 128]⟩

abbrev nBuf : Space → Nat
  | .hbm => 114
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S200000, .i32⟩
  | .hbm, ⟨3, _⟩ => ⟨S200000, .i32⟩
  | .hbm, ⟨4, _⟩ => ⟨S600000, .f32⟩
  | .hbm, ⟨5, _⟩ => ⟨S2x128x128, .f32⟩
  | .hbm, ⟨6, _⟩ => ⟨S2x128x128, .f32⟩
  | .hbm, ⟨7, _⟩ => ⟨S2x128, .f32⟩
  | .hbm, ⟨8, _⟩ => ⟨S1000x128, .f32⟩
  | .hbm, ⟨9, _⟩ => ⟨S1x600000, .i32⟩
  | .hbm, ⟨10, _⟩ => ⟨S600000, .i32⟩
  | .hbm, ⟨11, _⟩ => ⟨S1x600000, .i32⟩
  | .hbm, ⟨12, _⟩ => ⟨S600000, .i32⟩
  | .hbm, ⟨13, _⟩ => ⟨S_, .i32⟩
  | .hbm, ⟨14, _⟩ => ⟨S600000, .i32⟩
  | .hbm, ⟨15, _⟩ => ⟨S600000, .i1⟩
  | .hbm, ⟨16, _⟩ => ⟨S_, .i32⟩
  | .hbm, ⟨17, _⟩ => ⟨S600000, .i32⟩
  | .hbm, ⟨18, _⟩ => ⟨S600000, .i32⟩
  | .hbm, ⟨19, _⟩ => ⟨S600000, .i32⟩
  | .hbm, ⟨20, _⟩ => ⟨S600000x1, .i32⟩
  | .hbm, ⟨21, _⟩ => ⟨S600000x128, .f32⟩
  | .hbm, ⟨22, _⟩ => ⟨S600000x1, .f32⟩
  | .hbm, ⟨23, _⟩ => ⟨S600000x128, .f32⟩
  | .hbm, ⟨24, _⟩ => ⟨S600000x128, .f32⟩
  | .hbm, ⟨25, _⟩ => ⟨S_, .f32⟩
  | .hbm, ⟨26, _⟩ => ⟨S50000x128, .f32⟩
  | .hbm, ⟨27, _⟩ => ⟨S600000x1, .i32⟩
  | .hbm, ⟨28, _⟩ => ⟨S50000x128, .f32⟩
  | .hbm, ⟨29, _⟩ => ⟨S_, .f32⟩
  | .hbm, ⟨30, _⟩ => ⟨S50000, .f32⟩
  | .hbm, ⟨31, _⟩ => ⟨S600000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S50000x128, .f32⟩
  | .hbm, ⟨39, _⟩ => ⟨S1x128x128, .f32⟩
  | .hbm, ⟨40, _⟩ => ⟨S128x128, .f32⟩
  | .hbm, ⟨41, _⟩ => ⟨S50000x128, .f32⟩
  | .hbm, ⟨42, _⟩ => ⟨S1x128x128, .f32⟩
  | .hbm, ⟨43, _⟩ => ⟨S128x128, .f32⟩
  | .hbm, ⟨44, _⟩ => ⟨S50000x128, .f32⟩
  | .hbm, ⟨45, _⟩ => ⟨S50000x128, .f32⟩
  | .hbm, ⟨46, _⟩ => ⟨S1x128, .f32⟩
  | .hbm, ⟨47, _⟩ => ⟨S128, .f32⟩
  | .hbm, ⟨48, _⟩ => ⟨S1x128, .f32⟩
  | .hbm, ⟨49, _⟩ => ⟨S50000x128, .f32⟩
  | .hbm, ⟨50, _⟩ => ⟨S50000x128, .f32⟩
  | .hbm, ⟨51, _⟩ => ⟨S_, .f32⟩
  | .hbm, ⟨52, _⟩ => ⟨S50000x128, .f32⟩
  | .hbm, ⟨53, _⟩ => ⟨S50000x128, .f32⟩
  | .hbm, ⟨54, _⟩ => ⟨S_, .i32⟩
  | .hbm, ⟨55, _⟩ => ⟨S600000, .i32⟩
  | .hbm, ⟨56, _⟩ => ⟨S600000, .i1⟩
  | .hbm, ⟨57, _⟩ => ⟨S_, .i32⟩
  | .hbm, ⟨58, _⟩ => ⟨S600000, .i32⟩
  | .hbm, ⟨59, _⟩ => ⟨S600000, .i32⟩
  | .hbm, ⟨60, _⟩ => ⟨S600000, .i32⟩
  | .hbm, ⟨61, _⟩ => ⟨S600000x1, .i32⟩
  | .hbm, ⟨62, _⟩ => ⟨S600000x128, .f32⟩
  | .hbm, ⟨63, _⟩ => ⟨S600000x1, .f32⟩
  | .hbm, ⟨64, _⟩ => ⟨S600000x128, .f32⟩
  | .hbm, ⟨65, _⟩ => ⟨S600000x128, .f32⟩
  | .hbm, ⟨66, _⟩ => ⟨S_, .f32⟩
  | .hbm, ⟨67, _⟩ => ⟨S50000x128, .f32⟩
  | .hbm, ⟨68, _⟩ => ⟨S600000x1, .i32⟩
  | .hbm, ⟨69, _⟩ => ⟨S50000x128, .f32⟩
  | .hbm, ⟨70, _⟩ => ⟨S_, .f32⟩
  | .hbm, ⟨71, _⟩ => ⟨S50000, .f32⟩
  | .hbm, ⟨72, _⟩ => ⟨S600000x1, .i32⟩
  | .hbm, ⟨73, _⟩ => ⟨S50000, .f32⟩
  | .hbm, ⟨74, _⟩ => ⟨S_, .f32⟩
  | .hbm, ⟨75, _⟩ => ⟨S50000, .f32⟩
  | .hbm, ⟨76, _⟩ => ⟨S50000, .f32⟩
  | .hbm, ⟨77, _⟩ => ⟨S50000x1, .f32⟩
  | .hbm, ⟨78, _⟩ => ⟨S50000x128, .f32⟩
  | .hbm, ⟨79, _⟩ => ⟨S50000x128, .f32⟩
  | .hbm, ⟨80, _⟩ => ⟨S1x128x128, .f32⟩
  | .hbm, ⟨81, _⟩ => ⟨S128x128, .f32⟩
  | .hbm, ⟨82, _⟩ => ⟨S50000x128, .f32⟩
  | .hbm, ⟨83, _⟩ => ⟨S1x128x128, .f32⟩
  | .hbm, ⟨84, _⟩ => ⟨S128x128, .f32⟩
  | .hbm, ⟨85, _⟩ => ⟨S50000x128, .f32⟩
  | .hbm, ⟨86, _⟩ => ⟨S50000x128, .f32⟩
  | .hbm, ⟨87, _⟩ => ⟨S1x128, .f32⟩
  | .hbm, ⟨88, _⟩ => ⟨S128, .f32⟩
  | .hbm, ⟨89, _⟩ => ⟨S1x128, .f32⟩
  | .hbm, ⟨90, _⟩ => ⟨S50000x128, .f32⟩
  | .hbm, ⟨91, _⟩ => ⟨S50000x128, .f32⟩
  | .hbm, ⟨92, _⟩ => ⟨S_, .f32⟩
  | .hbm, ⟨93, _⟩ => ⟨S50000x128, .f32⟩
  | .hbm, ⟨94, _⟩ => ⟨S50000x128, .f32⟩
  | .hbm, ⟨95, _⟩ => ⟨S_, .i32⟩
  | .hbm, ⟨96, _⟩ => ⟨S200000, .i32⟩
  | .hbm, ⟨97, _⟩ => ⟨S200000, .i1⟩
  | .hbm, ⟨98, _⟩ => ⟨S_, .i32⟩
  | .hbm, ⟨99, _⟩ => ⟨S200000, .i32⟩
  | .hbm, ⟨100, _⟩ => ⟨S200000, .i32⟩
  | .hbm, ⟨101, _⟩ => ⟨S200000, .i32⟩
  | .hbm, ⟨102, _⟩ => ⟨S200000x1, .i32⟩
  | .hbm, ⟨103, _⟩ => ⟨S200000x128, .f32⟩
  | .hbm, ⟨104, _⟩ => ⟨S_, .i32⟩
  | .hbm, ⟨105, _⟩ => ⟨S200000, .i32⟩
  | .hbm, ⟨106, _⟩ => ⟨S200000, .i1⟩
  | .hbm, ⟨107, _⟩ => ⟨S_, .i32⟩
  | .hbm, ⟨108, _⟩ => ⟨S200000, .i32⟩
  | .hbm, ⟨109, _⟩ => ⟨S200000, .i32⟩
  | .hbm, ⟨110, _⟩ => ⟨S200000, .i32⟩
  | .hbm, ⟨111, _⟩ => ⟨S200000x1, .i32⟩
  | .hbm, ⟨112, _⟩ => ⟨S200000x128, .f32⟩
  | .hbm, ⟨113, _⟩ => ⟨S200000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_call0_cst : Ref sig .tc := ⟨.hbm, 51, rfl⟩
abbrev main_call0_v0 : Ref sig .tc := ⟨.hbm, 52, rfl⟩
abbrev main_v37 : Ref sig .tc := ⟨.hbm, 53, rfl⟩
abbrev main_c_3 : Ref sig .tc := ⟨.hbm, 54, rfl⟩
abbrev main_v38 : Ref sig .tc := ⟨.hbm, 55, rfl⟩
abbrev main_v39 : Ref sig .tc := ⟨.hbm, 56, rfl⟩
abbrev main_c_4 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_5 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_6 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_7 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_call1_cst : Ref sig .tc := ⟨.hbm, 92, rfl⟩
abbrev main_call1_v0 : Ref sig .tc := ⟨.hbm, 93, rfl⟩
abbrev main_v71 : Ref sig .tc := ⟨.hbm, 94, rfl⟩
abbrev main_c_8 : Ref sig .tc := ⟨.hbm, 95, rfl⟩
abbrev main_v72 : Ref sig .tc := ⟨.hbm, 96, rfl⟩
abbrev main_v73 : Ref sig .tc := ⟨.hbm, 97, rfl⟩
abbrev main_c_9 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_c_10 : Ref sig .tc := ⟨.hbm, 104, rfl⟩
abbrev main_v79 : Ref sig .tc := ⟨.hbm, 105, rfl⟩
abbrev main_v80 : Ref sig .tc := ⟨.hbm, 106, rfl⟩
abbrev main_c_11 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x128x128_S1x128x128_1_0_0 : S2x128x128.Slices ![1, 0, 0] S1x128x128
  slices_S2x128_S1x128_1_0 : S2x128.Slices ![1, 0] S1x128
  bcast_S_S200000 : S_.BroadcastsInDim S200000 (![] : Fin 0 → Fin S200000.rank)
  bcast_S200000_S200000x1_0 : S200000.BroadcastsInDim S200000x1 (![0] : Fin 1 → Fin S200000x1.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  gather_S50000x128_S200000x1_S200000x128_1_0_n_n_0_1_1128_wf : GatherDims.WF S50000x128 S200000x1 S200000x128 [1] [0] [] [0] [] 1 ![1, 128]
  gather_S1000x128_S200000x1_S200000x128_1_0_n_n_0_1_1128_wf : GatherDims.WF S1000x128 S200000x1 S200000x128 [1] [0] [] [0] [] 1 ![1, 128]

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def gather_S1000x128_S200000x1_S200000x128_1_0_n_n_0_1_1128 : GatherDims S1000x128 S200000x1 S200000x128 where
  offsetDims := [1]
  collapsedSliceDims := [0]
  operandBatchingDims := []
  startIndicesBatchingDims := []
  startIndexMap := [0]
  indexVectorDim := 1
  sliceSizes := ![1, 128]
  wf := gather_S1000x128_S200000x1_S200000x128_1_0_n_n_0_1_1128_wf

class Facts : Prop extends Facts₀ where

variable [Facts]
-- ==== Proof.ResultRun.lean ====
/-
  The kernel program's run at the ideal instance, with its RESULT named.

  The program is five stretches in a row: host operations, the first hop's grid of ten points, host operations, the
  second hop's grid, host operations. The contents of the TensorCore's buffers at the four boundaries between them and
  at the end are a fold from the launch memory (`Gen.W1` … `Gen.W5`): a host stretch applies its operations in order,
  and a grid leaves its windows' arrays at what its ten write-backs put there and every other buffer as it found it.
  Every weakly fair execution ends with EVERY unscoped buffer at the last of these, `Gen.W5`. Read at the nine
  argument arrays that is the frame claim; read also at the buffer of the final sum it names the program's result.
-/
import proofs.«171727_j48095043780825_1_alg».proof.Proof.Gen.KernelIdeal.Frame

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the nine argument arrays as launched. -/
theorem run_result : θ_run defs (onTc (τ := τ) (main (F := F))) ⟨m, fun _ => 0, ρ⟩ (fun r => ∀ c : Dev nD,
      r.2.mem ((c.tc : Thread nD τ).loc main_v74) = W5 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v74 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c)⟩)

end Cert.KernelIdeal.Whole

end
-- ==== Proof.DenseSpec.lean ====
/-
  One hop's dense step, entry by entry, on the extended reals.

  A node's new feature vector is `relu(x·Wself + agg·Wneigh + bias)`: entry `(r, q)` of the result takes row `r` of the
  node features `x` and of the aggregated neighbour features `agg`, column `q` of the two 128 × 128 weight matrices, and
  entry `q` of the bias. It is the larger of `0` and
      (Σₖ x[r, k] · Wself[k, q]  +  Σₖ agg[r, k] · Wneigh[k, q])  +  bias[q],
  the two sums over the 128 feature coordinates. Nothing here depends on how the 50000 rows are cut into blocks: a row of
  the result reads the same row of `x` and of `agg`, and no other.
-/
import Idealize.ShloMosaic.PureOps.Ideal
import Idealize.ShloMosaic.Lib.ValueIdx

noncomputable section

namespace Cert.Sage

open Idealize.ShloMosaic Idealize.ShloMosaic.ValueIdx

/-- One entry of the dense step from the row of `x`, the row of `agg`, the column of each weight matrix and the bias
    entry: `max ((Σₖ xr k · wc k + Σₖ ar k · nc k) + b) 0`. -/
def cell (xr ar wc nc : Fin 128 → EReal) (b : EReal) : EReal :=
  max ((∑ k : Fin 128, xr k * wc k + ∑ k : Fin 128, ar k * nc k) + b) 0

/-- An entry depends only on the values of its two rows, its two columns and its bias entry. -/
theorem cell_congr {xr xr' ar ar' wc wc' nc nc' : Fin 128 → EReal} {b b' : EReal}
    (h0 : ∀ k, xr k = xr' k) (h1 : ∀ k, ar k = ar' k) (h2 : ∀ k, wc k = wc' k) (h3 : ∀ k, nc k = nc' k) (h4 : b = b') :
    cell xr ar wc nc b = cell xr' ar' wc' nc' b' := by
  rw [show xr = xr' from funext h0, show ar = ar' from funext h1, show wc = wc' from funext h2,
    show nc = nc' from funext h3, h4]

/-- The dense step over all 50000 nodes: entry `(r, q)` is `cell` of row `r` of `X` and `A`, column `q` of `Ws` and
    `Wn`, and `B q`. -/
def dense (X A : (⟨2, ![50000, 128]⟩ : Shape).Idx → EReal) (Ws Wn : (⟨2, ![128, 128]⟩ : Shape).Idx → EReal)
    (B : (⟨1, ![128]⟩ : Shape).Idx → EReal) : (⟨2, ![50000, 128]⟩ : Shape).Idx → EReal :=
  fun i => cell (fun k => X (ix2 (i 0) k)) (fun k => A (ix2 (i 0) k)) (fun k => Ws (ix2 k (i 1)))
    (fun k => Wn (ix2 k (i 1))) (B (ix1 (i 1)))

/-- The dense step read at the entry with coordinates `r` and `q`. -/
theorem dense_ix2 (X A : (⟨2, ![50000, 128]⟩ : Shape).Idx → EReal) (Ws Wn : (⟨2, ![128, 128]⟩ : Shape).Idx → EReal)
    (B : (⟨1, ![128]⟩ : Shape).Idx → EReal) (r : Fin 50000) (q : Fin 128) :
    dense X A Ws Wn B (ix2 r q) = cell (fun k => X (ix2 r k)) (fun k => A (ix2 r k)) (fun k => Ws (ix2 k q))
      (fun k => Wn (ix2 k q)) (B (ix1 q)) := rfl

end Cert.Sage

end
-- ==== Proof.BlockPayload.lean ====
/-
  What one grid point computes, entry by entry, at the ideal instance.

  A point holds a block of 5000 rows of the node features `x` and of the aggregated features `agg`, both whole weight
  matrices and the whole bias. The body rounds each to bf16 (the identity on extended reals), multiplies `x` by
  `Wself` and `agg` by `Wneigh` on the matrix unit into zero accumulators, adds the two products, adds the bias row to
  every row, and takes the maximum with zero. So entry `(p, q)` of what it stores is `Cert.Sage.cell` of row `p` of the
  two row blocks, column `q` of the two matrices and `bias q`: a matrix product into a zero accumulator is the plain sum
  over the 128 contracted coordinates, and the bias, re-laid as one row and repeated down the block, is read at its
  column. The second hop's body differs from the first's by one re-layout of `x` to its own shape, which changes nothing.
-/
import proofs.«171727_j48095043780825_1_alg».proof.Proof.Gen.KernelIdeal.Skeleton
import proofs.«171727_j48095043780825_1_alg».proof.Proof.DenseSpec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Block

open Cert.KernelIdeal Cert.KernelIdeal.Gen Idealize.ShloMosaic Idealize.ShloMosaic.ValueIdx Cert.Sage

/-! ## The block product's operand indices -/

/-- The left operand is read in the output entry's row … -/
theorem lhs_row (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … at the contracted coordinate; … -/
theorem lhs_col (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
/-- … the right operand at the contracted coordinate … -/
theorem rhs_row (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
/-- … in the output entry's column. -/
theorem rhs_col (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block of rows times a 128 × 128 matrix into a zero accumulator: entry `(p, q)` is `Σₖ l[p, k] · r[k, q]`. -/
theorem matmul_zero_at (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  show FloatOps.matmul dot_S5000x128_S128x128_S5000x128_1_0_0_1_n_n none l r (constant (F := Ideal) S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The bias, re-laid as one row and repeated down the block, read at `(p, q)` is `bias q`. -/
theorem bias_at (b : FVec Ideal S128 .f32) (h1 : S128.ShapeCasts S1x128) (h2 : S1x128.Broadcasts S5000x128) (p : Fin 5000) (q : Fin 128) :
    broadcastTo S5000x128 (shapeCast S1x128 b h1) h2 (ix2 p q) = b (ix1 q) := by
  rw [broadcastTo_1b_ab_apply, shapeCast_a_1a_apply]

/-! ## The two bodies' stored values -/

/-- The first hop's stored block, entry by entry. -/
theorem pay0_at (x0 x1 : Vec Ideal S5000x128 .f32) (x2 x3 : Vec Ideal S128x128 .f32) (x4 : Vec Ideal S128 .f32)
    (p : Fin 5000) (q : Fin 128) :
    k0_pay1 (F := Ideal) x0 x1 x2 x3 x4 (ix2 p q)
      = cell (fun k => x0 (ix2 p k)) (fun k => x1 (ix2 p k)) (fun k => x2 (ix2 k q)) (fun k => x3 (ix2 k q)) (x4 (ix1 q)) := by
  unfold k0_pay1 cell
  simp only [shapeCast_self]
  rw [maximumf_apply, addf_apply, addf_apply, matmul_zero_at, matmul_zero_at, bias_at, broadcast_apply]
  show max _ (Ideal.ofBits .f32 0x00000000#32) = _
  rw [Ideal.ofBits_zero_f32]
  rfl

/-- The second hop's stored block, entry by entry: the same function. -/
theorem pay1_at (x0 x1 : Vec Ideal S5000x128 .f32) (x2 x3 : Vec Ideal S128x128 .f32) (x4 : Vec Ideal S128 .f32)
    (p : Fin 5000) (q : Fin 128) :
    k1_pay1 (F := Ideal) x0 x1 x2 x3 x4 (ix2 p q)
      = cell (fun k => x0 (ix2 p k)) (fun k => x1 (ix2 p k)) (fun k => x2 (ix2 k q)) (fun k => x3 (ix2 k q)) (x4 (ix1 q)) := by
  unfold k1_pay1 cell
  simp only [shapeCast_self]
  rw [maximumf_apply, addf_apply, addf_apply, matmul_zero_at, matmul_zero_at, bias_at, broadcast_apply]
  show max _ (Ideal.ofBits .f32 0x00000000#32) = _
  rw [Ideal.ofBits_zero_f32]
  rfl

end Cert.KernelIdeal.Block

end
-- ==== Proof.GridValue.lean ====
/-
  Each hop's grid, as one function of the arrays it is entered with.

  A grid has ten points; point `t` stages rows `5000·t … 5000·t + 4999` of the node features and of the aggregated
  features, the whole of both weight matrices and of the bias, and writes back the same rows of the output. What it
  writes is, entry by entry, the dense step's `cell` of those rows (the stored value read at an index), so block `t` of
  the output is block `t` of `Cert.Sage.dense` of the entry arrays; the ten blocks tile the 50000 rows (row `r` lies in
  the block of point `r / 5000`), hence the whole output array ends at `dense` of the entry arrays. A block's coordinate
  is always index × block size + 1 × the coordinate inside the block, and the index maps are decided once over the ten
  points. Both hops launch the same body on the same windows, so the second section repeats the first.
-/
import proofs.«171727_j48095043780825_1_alg».proof.Proof.Gen.KernelIdeal.Frame
import proofs.«171727_j48095043780825_1_alg».proof.Proof.BlockPayload
import Idealize.ShloMosaic.Lib.Pipeline.Value

set_option maxRecDepth 16384

noncomputable section

namespace Cert.KernelIdeal.Grid

open Cert.KernelIdeal Cert.KernelIdeal.Gen Cert.KernelIdeal.Block Cert.Sage
open Idealize.ShloMosaic Idealize.ShloMosaic.TcCoe Idealize.ShloMosaic.ValueIdx Idealize.SL.Sem
open Idealize.ShloMosaic.Pipeline (Dat Cfg Window)

theorem hz2 : (![0, 0] : Fin 2 → Nat) = fun _ => 0 := funext fun a => by fin_cases a <;> rfl
theorem hz1 : (![0] : Fin 1 → Nat) = fun _ => 0 := funext fun a => by fin_cases a <;> rfl

-- the TensorCore's buffer contents when a grid is entered
variable (V : (c : Dev nD) → (b : Ref sig .tc) → Buf (Elt Ideal) ((c : Thread nD τ).loc b))

/-! ## Hop 1's grid -/

/-- The printed index maps, decided over the ten points: the two row blocks move with the output's block, whose row
    index is the point's number; the weight matrices, the bias and every column index stay at zero. -/
theorem idx_facts0 : ∀ t : Fin cfg0.N,
    win0_5.index t (0 : Fin 2) = t.val ∧ win0_5.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0 :=
  (by decide +kernel : ∀ t : Fin grid0.N, _)

/-- WHAT POINT `t` WRITES BACK is rows `5000·t … 5000·t + 4999` of the dense step of the arrays as the grid finds them. -/
theorem flushed0_eq (c : Dev nD) (t : Fin cfg0.N) :
    (dat0 (F := Ideal) V c).flushed 5 t = ((cfg0.win 5).blk t).view.read (Elt Ideal)
      (dense (V c main_arg0) (V c main_v24) (V c main_v26) (V c main_v28) (V c main_v30)) := by
  show (cfg0.win 5).cut (grid0.coords t) ((dat0 V c).after 5 t) = _
  rw [after0_5]
  unfold out0_5
  rw [View.canon_unit_zero hz2]
  simp only [View.ld_unit_zero (S := S5000x128) hz2, View.ld_unit_zero (S := S128x128) hz2, View.ld_unit_zero (S := S128) hz1]
  obtain ⟨e50, e51, e00, e01, e10, e11, e20, e21, e30, e31, e40⟩ := idx_facts0 t
  have hN : grid0.N = 10 := N_0
  have ht : t.val < 10 := by have h : t.val < grid0.N := t.isLt; omega
  funext j
  obtain ⟨p, q, rfl⟩ : ∃ (p : Fin 5000) (q : Fin 128), j = ix2 p q := ⟨j 0, j 1, eq_ix2 j⟩
  have hp : p.val < 5000 := p.isLt
  have hq : q.val < 128 := q.isLt
  have e5 : ((cfg0.win 5).blk t).view.emb (ix2 p q) = ix2 (⟨t.val * 5000 + p.val, by omega⟩ : Fin 50000) q := by
    funext a; apply Fin.ext
    match a with
    | ⟨0, _⟩ => show win0_5.index t (0 : Fin 2) * 5000 + 1 * p.val = t.val * 5000 + p.val; omega
    | ⟨1, _⟩ => show win0_5.index t (1 : Fin 2) * 128 + 1 * q.val = q.val; omega
  show k0_pay1 (F := Ideal) (iblk0 V c 0 t) (iblk0 V c 1 t) (iblk0 V c 2 t) (iblk0 V c 3 t) (iblk0 V c 4 t) (ix2 p q)
    = dense (V c main_arg0) (V c main_v24) (V c main_v26) (V c main_v28) (V c main_v30) (((cfg0.win 5).blk t).view.emb (ix2 p q))
  rw [e5, dense_ix2]
  refine (pay0_at (iblk0 V c 0 t) (iblk0 V c 1 t) (iblk0 V c 2 t) (iblk0 V c 3 t) (iblk0 V c 4 t) p q).trans ?_
  refine cell_congr (fun k => ?_) (fun k => ?_) (fun k => ?_) (fun k => ?_) ?_
  · have hk : k.val < 128 := k.isLt
    show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  · have hk : k.val < 128 := k.isLt
    show V c main_v24 (((cfg0.win 1).blk t).view.emb (ix2 p k)) = _
    refine congrArg (V c main_v24) (funext fun a => Fin.ext ?_)
    match a with
    | ⟨0, _⟩ => show win0_1.index t (0 : Fin 2) * 5000 + 1 * p.val = t.val * 5000 + p.val; omega
    | ⟨1, _⟩ => show win0_1.index t (1 : Fin 2) * 128 + 1 * k.val = k.val; omega
  · have hk : k.val < 128 := k.isLt
    show V c main_v26 (((cfg0.win 2).blk t).view.emb (ix2 k q)) = _
    refine congrArg (V c main_v26) (funext fun a => Fin.ext ?_)
    match a with
    | ⟨0, _⟩ => show win0_2.index t (0 : Fin 2) * 128 + 1 * k.val = k.val; omega
    | ⟨1, _⟩ => show win0_2.index t (1 : Fin 2) * 128 + 1 * q.val = q.val; omega
  · have hk : k.val < 128 := k.isLt
    show V c main_v28 (((cfg0.win 3).blk t).view.emb (ix2 k q)) = _
    refine congrArg (V c main_v28) (funext fun a => Fin.ext ?_)
    match a with
    | ⟨0, _⟩ => show win0_3.index t (0 : Fin 2) * 128 + 1 * k.val = k.val; omega
    | ⟨1, _⟩ => show win0_3.index t (1 : Fin 2) * 128 + 1 * q.val = q.val; omega
  · show V c main_v30 (((cfg0.win 4).blk t).view.emb (ix1 q)) = _
    refine congrArg (V c main_v30) (funext fun a => Fin.ext ?_)
    match a with
    | ⟨0, _⟩ => show win0_4.index t (0 : Fin 1) * 128 + 1 * q.val = q.val; omega

/-- An index of the output array is in point `t`'s block iff each coordinate is in the block's range on its axis. -/
theorem mem_blk0 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v31).slice (win0_5.rect t)).set ↔ _
  rw [View.set_slice_whole, Rect.mem_set_unit]
  exact Iff.rfl

/-- The ten blocks of 5000 rows cover the 50000 rows: row `r` is in the block of point `r / 5000`. -/
theorem cover0 (i : S50000x128.Idx) : ∃ t : Fin cfg0.N, (cfg0.win 5).flush t = true ∧ i ∈ ((cfg0.win 5).blk t).view.set := by
  have hN : grid0.N = 10 := N_0
  have hi0 : (i 0).val < 50000 := (i 0).isLt
  have hi1 : (i 1).val < 128 := (i 1).isLt
  let t : Fin cfg0.N := ⟨(i 0).val / 5000, by show (i 0).val / 5000 < grid0.N; omega⟩
  have htv : t.val = (i 0).val / 5000 := rfl
  obtain ⟨e50, e51, -⟩ := idx_facts0 t
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE OUTPUT ARRAY after the grid is the dense step of the arrays the grid was entered with. -/
theorem final0 (c : Dev nD) : (dat0 (F := Ideal) V c).arrAt 5 cfg0.N
    = dense (V c main_arg0) (V c main_v24) (V c main_v26) (V c main_v28) (V c main_v30) :=
  (dat0 V c).arrAt_eq_of_cover 5 _ (fun t _ => flushed0_eq V c t) (cover0)

/-! ## Hop 2's grid -/

/-- The printed index maps, decided over the ten points: the two row blocks move with the output's block, whose row
    index is the point's number; the weight matrices, the bias and every column index stay at zero. -/
theorem idx_facts1 : ∀ t : Fin cfg1.N,
    win1_5.index t (0 : Fin 2) = t.val ∧ win1_5.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0 :=
  (by decide +kernel : ∀ t : Fin grid1.N, _)

/-- WHAT POINT `t` WRITES BACK is rows `5000·t … 5000·t + 4999` of the dense step of the arrays as the grid finds them. -/
theorem flushed1_eq (c : Dev nD) (t : Fin cfg1.N) :
    (dat1 (F := Ideal) V c).flushed 5 t = ((cfg1.win 5).blk t).view.read (Elt Ideal)
      (dense (V c main_v31) (V c main_v52) (V c main_v54) (V c main_v56) (V c main_v58)) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S128x128) hz2, View.ld_unit_zero (S := S128) hz1]
  obtain ⟨e50, e51, e00, e01, e10, e11, e20, e21, e30, e31, e40⟩ := idx_facts1 t
  have hN : grid1.N = 10 := N_1
  have ht : t.val < 10 := by have h : t.val < grid1.N := t.isLt; omega
  funext j
  obtain ⟨p, q, rfl⟩ : ∃ (p : Fin 5000) (q : Fin 128), j = ix2 p q := ⟨j 0, j 1, eq_ix2 j⟩
  have hp : p.val < 5000 := p.isLt
  have hq : q.val < 128 := q.isLt
  have e5 : ((cfg1.win 5).blk t).view.emb (ix2 p q) = ix2 (⟨t.val * 5000 + p.val, by omega⟩ : Fin 50000) q := by
    funext a; apply Fin.ext
    match a with
    | ⟨0, _⟩ => show win1_5.index t (0 : Fin 2) * 5000 + 1 * p.val = t.val * 5000 + p.val; omega
    | ⟨1, _⟩ => show win1_5.index t (1 : Fin 2) * 128 + 1 * q.val = q.val; omega
  show k1_pay1 (F := Ideal) (iblk1 V c 0 t) (iblk1 V c 1 t) (iblk1 V c 2 t) (iblk1 V c 3 t) (iblk1 V c 4 t) (ix2 p q)
    = dense (V c main_v31) (V c main_v52) (V c main_v54) (V c main_v56) (V c main_v58) (((cfg1.win 5).blk t).view.emb (ix2 p q))
  rw [e5, dense_ix2]
  refine (pay1_at (iblk1 V c 0 t) (iblk1 V c 1 t) (iblk1 V c 2 t) (iblk1 V c 3 t) (iblk1 V c 4 t) p q).trans ?_
  refine cell_congr (fun k => ?_) (fun k => ?_) (fun k => ?_) (fun k => ?_) ?_
  · have hk : k.val < 128 := k.isLt
    show V c main_v31 (((cfg1.win 0).blk t).view.emb (ix2 p k)) = _
    refine congrArg (V c main_v31) (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * k.val = k.val; omega
  · have hk : k.val < 128 := k.isLt
    show V c main_v52 (((cfg1.win 1).blk t).view.emb (ix2 p k)) = _
    refine congrArg (V c main_v52) (funext fun a => Fin.ext ?_)
    match a with
    | ⟨0, _⟩ => show win1_1.index t (0 : Fin 2) * 5000 + 1 * p.val = t.val * 5000 + p.val; omega
    | ⟨1, _⟩ => show win1_1.index t (1 : Fin 2) * 128 + 1 * k.val = k.val; omega
  · have hk : k.val < 128 := k.isLt
    show V c main_v54 (((cfg1.win 2).blk t).view.emb (ix2 k q)) = _
    refine congrArg (V c main_v54) (funext fun a => Fin.ext ?_)
    match a with
    | ⟨0, _⟩ => show win1_2.index t (0 : Fin 2) * 128 + 1 * k.val = k.val; omega
    | ⟨1, _⟩ => show win1_2.index t (1 : Fin 2) * 128 + 1 * q.val = q.val; omega
  · have hk : k.val < 128 := k.isLt
    show V c main_v56 (((cfg1.win 3).blk t).view.emb (ix2 k q)) = _
    refine congrArg (V c main_v56) (funext fun a => Fin.ext ?_)
    match a with
    | ⟨0, _⟩ => show win1_3.index t (0 : Fin 2) * 128 + 1 * k.val = k.val; omega
    | ⟨1, _⟩ => show win1_3.index t (1 : Fin 2) * 128 + 1 * q.val = q.val; omega
  · show V c main_v58 (((cfg1.win 4).blk t).view.emb (ix1 q)) = _
    refine congrArg (V c main_v58) (funext fun a => Fin.ext ?_)
    match a with
    | ⟨0, _⟩ => show win1_4.index t (0 : Fin 1) * 128 + 1 * q.val = q.val; omega

/-- An index of the output array is in point `t`'s block iff each coordinate is in the block's range on its axis. -/
theorem mem_blk1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v59).slice (win1_5.rect t)).set ↔ _
  rw [View.set_slice_whole, Rect.mem_set_unit]
  exact Iff.rfl

/-- The ten blocks of 5000 rows cover the 50000 rows: row `r` is in the block of point `r / 5000`. -/
theorem cover1 (i : S50000x128.Idx) : ∃ t : Fin cfg1.N, (cfg1.win 5).flush t = true ∧ i ∈ ((cfg1.win 5).blk t).view.set := by
  have hN : grid1.N = 10 := N_1
  have hi0 : (i 0).val < 50000 := (i 0).isLt
  have hi1 : (i 1).val < 128 := (i 1).isLt
  let t : Fin cfg1.N := ⟨(i 0).val / 5000, by show (i 0).val / 5000 < grid1.N; omega⟩
  have htv : t.val = (i 0).val / 5000 := rfl
  obtain ⟨e50, e51, -⟩ := idx_facts1 t
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE OUTPUT ARRAY after the grid is the dense step of the arrays the grid was entered with. -/
theorem final1 (c : Dev nD) : (dat1 (F := Ideal) V c).arrAt 5 cfg1.N
    = dense (V c main_v31) (V c main_v52) (V c main_v54) (V c main_v56) (V c main_v58) :=
  (dat1 V c).arrAt_eq_of_cover 5 _ (fun t _ => flushed1_eq V c t) (cover1)

end Cert.KernelIdeal.Grid

end
-- ==== Proof.RefDense.lean ====
/-
  The reference's two hops are the dense step.

  In the reference each hop ends `relu(x @ Wself[h] + agg @ Wneigh[h] + bias[h])`: two whole-array matrix products,
  their sum, the bias row repeated down the 50000 rows, and the maximum with zero. Read at an entry `(r, q)`, a matrix
  product is the sum over the 128 contracted coordinates of the left operand's row `r` times the right operand's column
  `q`, the repeated bias is `bias q`, and the zero it is compared with is the real number 0: the entry is
  `Cert.Sage.cell` of those rows and columns, so each hop's result is `Cert.Sage.dense` of its five operands — for the
  first hop the node features, their aggregate and the first slices of the parameters; for the second the first hop's
  result, its aggregate and the second slices.
-/
import proofs.«171727_j48095043780825_1_alg».proof.Proof.Gen.ReferenceIdeal.Read
import proofs.«171727_j48095043780825_1_alg».proof.Proof.DenseSpec

noncomputable section

namespace Cert.ReferenceIdeal.Hops

open Cert.ReferenceIdeal Cert.ReferenceIdeal.Read Idealize.ShloMosaic Idealize.ShloMosaic.ValueIdx Cert.Sage

/-- The first hop's result is the dense step of the node features, their aggregate, and the first slices of the weights and bias. -/
theorem hop1_is_dense (x0 : (⟨S50000x128, .f32⟩ : BufTy).Contents (Elt Ideal)) (x1 : (⟨S2x600000, .i32⟩ : BufTy).Contents (Elt Ideal))
    (x4 : (⟨S600000, .f32⟩ : BufTy).Contents (Elt Ideal)) (x5 x6 : (⟨S2x128x128, .f32⟩ : BufTy).Contents (Elt Ideal))
    (x7 : (⟨S2x128, .f32⟩ : BufTy).Contents (Elt Ideal)) :
    val_main_v37 (F := Ideal) x0 x1 x4 x5 x6 x7
      = dense (x0) (val_main_v24 (F := Ideal) x0 x1 x4) (val_main_v26 (F := Ideal) x5) (val_main_v29 (F := Ideal) x6) (val_main_v33 (F := Ideal) x7) := by
  funext i
  obtain ⟨r, q, rfl⟩ : ∃ (r : Fin 50000) (q : Fin 128), i = ix2 r q := ⟨i 0, i 1, eq_ix2 i⟩
  rw [val_main_v37_apply, val_main_v36_apply, val_main_v31_apply, val_main_v27_apply, val_main_v30_apply,
    val_main_v35_apply, val_main_v34_apply, dense_ix2]
  have el : ∀ k : Fin 128, lidx_main_v27 (ix2 r q) k = ix2 r k := fun k => funext fun a => by
    match a with | ⟨0, _⟩ => rfl | ⟨1, _⟩ => rfl
  have er : ∀ k : Fin 128, ridx_main_v27 (ix2 r q) k = ix2 k q := fun k => funext fun a => by
    match a with | ⟨0, _⟩ => rfl | ⟨1, _⟩ => rfl
  have el' : ∀ k : Fin 128, lidx_main_v30 (ix2 r q) k = ix2 r k := fun k => funext fun a => by
    match a with | ⟨0, _⟩ => rfl | ⟨1, _⟩ => rfl
  have er' : ∀ k : Fin 128, ridx_main_v30 (ix2 r q) k = ix2 k q := fun k => funext fun a => by
    match a with | ⟨0, _⟩ => rfl | ⟨1, _⟩ => rfl
  have eb : idx_main_v34 (idx_main_v35 (ix2 r q)) = ix1 q := funext fun a => by
    match a with | ⟨0, _⟩ => rfl
  simp only [el, er, el', er', eb]
  show max _ (Ideal.ofBits .f32 0x00000000#32) = _
  rw [Ideal.ofBits_zero_f32]
  rfl

/-- The second hop's result is the dense step of the first hop's result, its aggregate, and the second slices of the weights and bias. -/
theorem hop2_is_dense (x0 : (⟨S50000x128, .f32⟩ : BufTy).Contents (Elt Ideal)) (x1 : (⟨S2x600000, .i32⟩ : BufTy).Contents (Elt Ideal))
    (x4 : (⟨S600000, .f32⟩ : BufTy).Contents (Elt Ideal)) (x5 x6 : (⟨S2x128x128, .f32⟩ : BufTy).Contents (Elt Ideal))
    (x7 : (⟨S2x128, .f32⟩ : BufTy).Contents (Elt Ideal)) :
    val_main_v71 (F := Ideal) x0 x1 x4 x5 x6 x7
      = dense (val_main_v37 (F := Ideal) x0 x1 x4 x5 x6 x7) (val_main_v58 (F := Ideal) x0 x1 x4 x5 x6 x7) (val_main_v60 (F := Ideal) x5) (val_main_v63 (F := Ideal) x6) (val_main_v67 (F := Ideal) x7) := by
  funext i
  obtain ⟨r, q, rfl⟩ : ∃ (r : Fin 50000) (q : Fin 128), i = ix2 r q := ⟨i 0, i 1, eq_ix2 i⟩
  rw [val_main_v71_apply, val_main_v70_apply, val_main_v65_apply, val_main_v61_apply, val_main_v64_apply,
    val_main_v69_apply, val_main_v68_apply, dense_ix2]
  have el : ∀ k : Fin 128, lidx_main_v61 (ix2 r q) k = ix2 r k := fun k => funext fun a => by
    match a with | ⟨0, _⟩ => rfl | ⟨1, _⟩ => rfl
  have er : ∀ k : Fin 128, ridx_main_v61 (ix2 r q) k = ix2 k q := fun k => funext fun a => by
    match a with | ⟨0, _⟩ => rfl | ⟨1, _⟩ => rfl
  have el' : ∀ k : Fin 128, lidx_main_v64 (ix2 r q) k = ix2 r k := fun k => funext fun a => by
    match a with | ⟨0, _⟩ => rfl | ⟨1, _⟩ => rfl
  have er' : ∀ k : Fin 128, ridx_main_v64 (ix2 r q) k = ix2 k q := fun k => funext fun a => by
    match a with | ⟨0, _⟩ => rfl | ⟨1, _⟩ => rfl
  have eb : idx_main_v68 (idx_main_v69 (ix2 r q)) = ix1 q := funext fun a => by
    match a with | ⟨0, _⟩ => rfl
  simp only [el, er, el', er', eb]
  show max _ (Ideal.ofBits .f32 0x00000000#32) = _
  rw [Ideal.ofBits_zero_f32]
  rfl

end Cert.ReferenceIdeal.Hops

end
-- ==== Proof.HopChain.lean ====
/-
  At the ideal instance the kernel program's result is the reference's, as a function of the nine arguments.

  Walk the buffer contents from the launch to the end. The first host stretch computes, from the arguments alone, the
  edge sources and destinations, the first aggregate (gather the source rows, weight them, add them up per destination,
  divide by the clamped weight total) and the first slices of the parameters: the same operations, in the same order,
  as the reference's. The first grid then leaves, in its output array, the dense step of the node features, that
  aggregate and those slices (`Grid.final0`) — which is what the reference's first hop computes (`Hops.hop1_is_dense`).
  The second host stretch reads that array, and the sources, destinations and weights again, to form the second
  aggregate and the second slices, again operation for operation as the reference; the second grid leaves the dense
  step of those, the reference's second hop. The last stretch gathers the queried rows of that array and of the effect
  table and adds them, as the reference does. So the final sum's buffer holds the reference's result stage applied to
  the kernel's own argument arrays. No property of the gathers, the scatter-adds or the quotient is used: they are the
  same functions applied to equal operands on both sides.
-/
import proofs.«171727_j48095043780825_1_alg».proof.Proof.Gen.KernelIdeal.Frame
import proofs.«171727_j48095043780825_1_alg».proof.Proof.GridValue
import proofs.«171727_j48095043780825_1_alg».proof.Proof.RefDense
import Idealize.ShloMosaic.Lib.StableHlo.Run

set_option maxRecDepth 16384

noncomputable section

namespace Cert.KernelIdeal.Chain

open Cert.KernelIdeal Cert.KernelIdeal.Gen Cert.Sage
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## After the first host stretch: everything is a stage of the arguments -/

theorem W1_main_arg0 : W1 m ρ c (Proc.devRef .tc main_arg0) = (m ((c : Thread nD τ).loc main_arg0)) := by
  show StableHlo.after hostOps0 (W0 m ρ c) (Proc.devRef .tc main_arg0) = _
  after_results_simp <;> rfl
theorem W1_main_arg1 : W1 m ρ c (Proc.devRef .tc main_arg1) = (m ((c : Thread nD τ).loc main_arg1)) := by
  show StableHlo.after hostOps0 (W0 m ρ c) (Proc.devRef .tc main_arg1) = _
  after_results_simp <;> rfl
theorem W1_main_arg2 : W1 m ρ c (Proc.devRef .tc main_arg2) = (m ((c : Thread nD τ).loc main_arg2)) := by
  show StableHlo.after hostOps0 (W0 m ρ c) (Proc.devRef .tc main_arg2) = _
  after_results_simp <;> rfl
theorem W1_main_arg3 : W1 m ρ c (Proc.devRef .tc main_arg3) = (m ((c : Thread nD τ).loc main_arg3)) := by
  show StableHlo.after hostOps0 (W0 m ρ c) (Proc.devRef .tc main_arg3) = _
  after_results_simp <;> rfl
theorem W1_main_arg4 : W1 m ρ c (Proc.devRef .tc main_arg4) = (m ((c : Thread nD τ).loc main_arg4)) := by
  show StableHlo.after hostOps0 (W0 m ρ c) (Proc.devRef .tc main_arg4) = _
  after_results_simp <;> rfl
theorem W1_main_arg5 : W1 m ρ c (Proc.devRef .tc main_arg5) = (m ((c : Thread nD τ).loc main_arg5)) := by
  show StableHlo.after hostOps0 (W0 m ρ c) (Proc.devRef .tc main_arg5) = _
  after_results_simp <;> rfl
theorem W1_main_arg6 : W1 m ρ c (Proc.devRef .tc main_arg6) = (m ((c : Thread nD τ).loc main_arg6)) := by
  show StableHlo.after hostOps0 (W0 m ρ c) (Proc.devRef .tc main_arg6) = _
  after_results_simp <;> rfl
theorem W1_main_arg7 : W1 m ρ c (Proc.devRef .tc main_arg7) = (m ((c : Thread nD τ).loc main_arg7)) := by
  show StableHlo.after hostOps0 (W0 m ρ c) (Proc.devRef .tc main_arg7) = _
  after_results_simp <;> rfl
theorem W1_main_arg8 : W1 m ρ c (Proc.devRef .tc main_arg8) = (m ((c : Thread nD τ).loc main_arg8)) := by
  show StableHlo.after hostOps0 (W0 m ρ c) (Proc.devRef .tc main_arg8) = _
  after_results_simp <;> rfl
theorem W1_main_v1 : W1 m ρ c (Proc.devRef .tc main_v1) = (Cert.ReferenceIdeal.Read.val_main_v1 (F := Ideal) (m ((c : Thread nD τ).loc main_arg1))) := by
  show StableHlo.after hostOps0 (W0 m ρ c) (Proc.devRef .tc main_v1) = _
  after_results_simp <;> rfl
theorem W1_main_v3 : W1 m ρ c (Proc.devRef .tc main_v3) = (Cert.ReferenceIdeal.Read.val_main_v3 (F := Ideal) (m ((c : Thread nD τ).loc main_arg1))) := by
  show StableHlo.after hostOps0 (W0 m ρ c) (Proc.devRef .tc main_v3) = _
  after_results_simp <;> rfl
theorem W1_main_v24 : W1 m ρ c (Proc.devRef .tc main_v24) = (Cert.ReferenceIdeal.Read.val_main_v24 (F := Ideal) (m ((c : Thread nD τ).loc main_arg0)) (m ((c : Thread nD τ).loc main_arg1)) (m ((c : Thread nD τ).loc main_arg4))) := by
  show StableHlo.after hostOps0 (W0 m ρ c) (Proc.devRef .tc main_v24) = _
  after_results_simp <;> rfl
theorem W1_main_v26 : W1 m ρ c (Proc.devRef .tc main_v26) = (Cert.ReferenceIdeal.Read.val_main_v26 (F := Ideal) (m ((c : Thread nD τ).loc main_arg5))) := by
  show StableHlo.after hostOps0 (W0 m ρ c) (Proc.devRef .tc main_v26) = _
  after_results_simp <;> rfl
theorem W1_main_v28 : W1 m ρ c (Proc.devRef .tc main_v28) = (Cert.ReferenceIdeal.Read.val_main_v29 (F := Ideal) (m ((c : Thread nD τ).loc main_arg6))) := by
  show StableHlo.after hostOps0 (W0 m ρ c) (Proc.devRef .tc main_v28) = _
  after_results_simp <;> rfl
theorem W1_main_v30 : W1 m ρ c (Proc.devRef .tc main_v30) = (Cert.ReferenceIdeal.Read.val_main_v33 (F := Ideal) (m ((c : Thread nD τ).loc main_arg7))) := by
  show StableHlo.after hostOps0 (W0 m ρ c) (Proc.devRef .tc main_v30) = _
  after_results_simp <;> rfl

/-! ## After the first grid -/

theorem W2_main_arg1 : W2 m ρ c (Proc.devRef .tc main_arg1) = (m ((c : Thread nD τ).loc main_arg1)) :=
  (W2_of_ne m ρ c main_arg1 (by decide)).trans (W1_main_arg1 m ρ c)
theorem W2_main_arg2 : W2 m ρ c (Proc.devRef .tc main_arg2) = (m ((c : Thread nD τ).loc main_arg2)) :=
  (W2_of_ne m ρ c main_arg2 (by decide)).trans (W1_main_arg2 m ρ c)
theorem W2_main_arg3 : W2 m ρ c (Proc.devRef .tc main_arg3) = (m ((c : Thread nD τ).loc main_arg3)) :=
  (W2_of_ne m ρ c main_arg3 (by decide)).trans (W1_main_arg3 m ρ c)
theorem W2_main_arg4 : W2 m ρ c (Proc.devRef .tc main_arg4) = (m ((c : Thread nD τ).loc main_arg4)) :=
  (W2_of_ne m ρ c main_arg4 (by decide)).trans (W1_main_arg4 m ρ c)
theorem W2_main_arg5 : W2 m ρ c (Proc.devRef .tc main_arg5) = (m ((c : Thread nD τ).loc main_arg5)) :=
  (W2_of_ne m ρ c main_arg5 (by decide)).trans (W1_main_arg5 m ρ c)
theorem W2_main_arg6 : W2 m ρ c (Proc.devRef .tc main_arg6) = (m ((c : Thread nD τ).loc main_arg6)) :=
  (W2_of_ne m ρ c main_arg6 (by decide)).trans (W1_main_arg6 m ρ c)
theorem W2_main_arg7 : W2 m ρ c (Proc.devRef .tc main_arg7) = (m ((c : Thread nD τ).loc main_arg7)) :=
  (W2_of_ne m ρ c main_arg7 (by decide)).trans (W1_main_arg7 m ρ c)
theorem W2_main_arg8 : W2 m ρ c (Proc.devRef .tc main_arg8) = (m ((c : Thread nD τ).loc main_arg8)) :=
  (W2_of_ne m ρ c main_arg8 (by decide)).trans (W1_main_arg8 m ρ c)
theorem W2_main_v1 : W2 m ρ c (Proc.devRef .tc main_v1) = (Cert.ReferenceIdeal.Read.val_main_v1 (F := Ideal) (m ((c : Thread nD τ).loc main_arg1))) :=
  (W2_of_ne m ρ c main_v1 (by decide)).trans (W1_main_v1 m ρ c)
theorem W2_main_v3 : W2 m ρ c (Proc.devRef .tc main_v3) = (Cert.ReferenceIdeal.Read.val_main_v3 (F := Ideal) (m ((c : Thread nD τ).loc main_arg1))) :=
  (W2_of_ne m ρ c main_v3 (by decide)).trans (W1_main_v3 m ρ c)

/-- The first grid's output array holds the reference's first hop of the arguments. -/
theorem W2_main_v31 : W2 m ρ c (Proc.devRef .tc main_v31) = (Cert.ReferenceIdeal.Read.val_main_v37 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) := by
  refine (W2_arr m ρ c 5).trans ((Grid.final0 (V1 m ρ) c).trans ?_)
  rw [Cert.ReferenceIdeal.Hops.hop1_is_dense]
  show dense (W1 m ρ c (Proc.devRef .tc main_arg0)) (W1 m ρ c (Proc.devRef .tc main_v24)) (W1 m ρ c (Proc.devRef .tc main_v26))
    (W1 m ρ c (Proc.devRef .tc main_v28)) (W1 m ρ c (Proc.devRef .tc main_v30)) = _
  rw [W1_main_arg0, W1_main_v24, W1_main_v26, W1_main_v28, W1_main_v30]

/-! ## After the second host stretch -/

/-- The first hop's array is not written by the second stretch. -/
theorem W3_main_v31 : W3 m ρ c (Proc.devRef .tc main_v31) = (Cert.ReferenceIdeal.Read.val_main_v37 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) := by
  show StableHlo.after hostOps1 (W2 m ρ c) (Proc.devRef .tc main_v31) = _
  after_results_simp
  exact W2_main_v31 m ρ c

/-- The second aggregate, from the first hop's array and the edges. -/
theorem W3_main_v52 : W3 m ρ c (Proc.devRef .tc main_v52) = (Cert.ReferenceIdeal.Read.val_main_v58 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) := by
  show StableHlo.after hostOps1 (W2 m ρ c) (Proc.devRef .tc main_v52) = _
  after_results_simp
  rw [W2_main_v31, W2_main_v1, W2_main_v3, W2_main_arg4]
  rfl

theorem W3_main_v54 : W3 m ρ c (Proc.devRef .tc main_v54) = (Cert.ReferenceIdeal.Read.val_main_v60 (F := Ideal) (m ((c : Thread nD τ).loc main_arg5))) := by
  show StableHlo.after hostOps1 (W2 m ρ c) (Proc.devRef .tc main_v54) = _
  after_results_simp
  rw [W2_main_arg5]
  rfl
theorem W3_main_v56 : W3 m ρ c (Proc.devRef .tc main_v56) = (Cert.ReferenceIdeal.Read.val_main_v63 (F := Ideal) (m ((c : Thread nD τ).loc main_arg6))) := by
  show StableHlo.after hostOps1 (W2 m ρ c) (Proc.devRef .tc main_v56) = _
  after_results_simp
  rw [W2_main_arg6]
  rfl
theorem W3_main_v58 : W3 m ρ c (Proc.devRef .tc main_v58) = (Cert.ReferenceIdeal.Read.val_main_v67 (F := Ideal) (m ((c : Thread nD τ).loc main_arg7))) := by
  show StableHlo.after hostOps1 (W2 m ρ c) (Proc.devRef .tc main_v58) = _
  after_results_simp
  rw [W2_main_arg7]
  rfl
theorem W3_main_arg2 : W3 m ρ c (Proc.devRef .tc main_arg2) = (m ((c : Thread nD τ).loc main_arg2)) := by
  show StableHlo.after hostOps1 (W2 m ρ c) (Proc.devRef .tc main_arg2) = _
  after_results_simp
  exact W2_main_arg2 m ρ c
theorem W3_main_arg3 : W3 m ρ c (Proc.devRef .tc main_arg3) = (m ((c : Thread nD τ).loc main_arg3)) := by
  show StableHlo.after hostOps1 (W2 m ρ c) (Proc.devRef .tc main_arg3) = _
  after_results_simp
  exact W2_main_arg3 m ρ c
theorem W3_main_arg8 : W3 m ρ c (Proc.devRef .tc main_arg8) = (m ((c : Thread nD τ).loc main_arg8)) := by
  show StableHlo.after hostOps1 (W2 m ρ c) (Proc.devRef .tc main_arg8) = _
  after_results_simp
  exact W2_main_arg8 m ρ c

/-! ## After the second grid -/

theorem W4_main_arg2 : W4 m ρ c (Proc.devRef .tc main_arg2) = (m ((c : Thread nD τ).loc main_arg2)) :=
  (W4_of_ne m ρ c main_arg2 (by decide)).trans (W3_main_arg2 m ρ c)
theorem W4_main_arg3 : W4 m ρ c (Proc.devRef .tc main_arg3) = (m ((c : Thread nD τ).loc main_arg3)) :=
  (W4_of_ne m ρ c main_arg3 (by decide)).trans (W3_main_arg3 m ρ c)
theorem W4_main_arg8 : W4 m ρ c (Proc.devRef .tc main_arg8) = (m ((c : Thread nD τ).loc main_arg8)) :=
  (W4_of_ne m ρ c main_arg8 (by decide)).trans (W3_main_arg8 m ρ c)

/-- The second grid's output array holds the reference's second hop of the arguments. -/
theorem W4_main_v59 : W4 m ρ c (Proc.devRef .tc main_v59) = (Cert.ReferenceIdeal.Read.val_main_v71 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) := by
  refine (W4_arr m ρ c 5).trans ((Grid.final1 (V3 m ρ) c).trans ?_)
  rw [Cert.ReferenceIdeal.Hops.hop2_is_dense]
  show dense (W3 m ρ c (Proc.devRef .tc main_v31)) (W3 m ρ c (Proc.devRef .tc main_v52)) (W3 m ρ c (Proc.devRef .tc main_v54))
    (W3 m ρ c (Proc.devRef .tc main_v56)) (W3 m ρ c (Proc.devRef .tc main_v58)) = _
  rw [W3_main_v31, W3_main_v52, W3_main_v54, W3_main_v56, W3_main_v58]

/-! ## At the end -/

/-- THE RESULT: the buffer of the final sum holds the reference's result stage of the kernel's argument arrays. -/
theorem result_eq : W5 m ρ c (Proc.devRef .tc main_v74)
    = Cert.ReferenceIdeal.Read.val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps2 (W4 m ρ c) (Proc.devRef .tc main_v74) = _
  after_results_simp
  rw [W4_main_v59, W4_main_arg2, W4_main_arg3, W4_main_arg8]
  rfl

end Cert.KernelIdeal.Chain

end
-- ==== Proof.lean ====
/-
  Two hops of a weighted-mean graph convolution, then a lookup: the tiled kernel against its plain reference.

  Both programs compute, from node features `x` (50000 × 128), edges with weights, per-hop weights and bias, two
  rounds of
      agg  = (Σ over edges into a node of  weight · x[source])  /  max(Σ weight, 1e-12)
      x    ← relu(x · Wself[h] + agg · Wneigh[h] + bias[h])
  and return `x[nodes] + effect_emb[effects]` for 200000 queried pairs. The gathers, the scatter-adds, the quotient
  and the final lookup are host operations in BOTH programs, the same ones in the same order; they differ only in the
  dense step, which the kernel runs as a grid of ten blocks of 5000 rows on the matrix unit after rounding its operands
  to bf16, and the reference as two whole-array products.

  At the ideal instance rounding is the identity and a matrix product into a zero accumulator is the plain sum over
  the contracted coordinate, so one entry of the kernel's block is `Cert.Sage.cell` of a row of `x`, a row of `agg`, a
  column of each weight matrix and a bias entry (Proof/BlockPayload.lean); the ten blocks tile the rows, so each grid
  leaves `Cert.Sage.dense` of the arrays it was entered with (Proof/GridValue.lean); the reference's hop is the same
  `dense` (Proof/RefDense.lean); and threading the two grids through the three host stretches, the kernel's final
  buffer holds the reference's result stage of the kernel's own arguments (Proof/HopChain.lean, over the run of
  Proof/ResultRun.lean). No algebraic law beyond reading the sums is needed, and finiteness of the inputs is never used:
  the two sides are the same finite sums of the same products.

  `preserves` is trivial: the idealization rewrote no operation. The frames of the two kernel programs are the
  generated ones; the reference's frame is its generated run with the result dropped.
-/
import proofs.«171727_j48095043780825_1_alg».proof.Defs
import proofs.«171727_j48095043780825_1_alg».proof.Proof.Gen.Kernel
import proofs.«171727_j48095043780825_1_alg».proof.Proof.Gen.Kernel.Skeleton
import proofs.«171727_j48095043780825_1_alg».proof.Proof.Gen.Kernel.Launch
import proofs.«171727_j48095043780825_1_alg».proof.Proof.Gen.Kernel.Points
import proofs.«171727_j48095043780825_1_alg».proof.Proof.Gen.Kernel.Frame
import proofs.«171727_j48095043780825_1_alg».proof.Proof.Gen.KernelIdeal
import proofs.«171727_j48095043780825_1_alg».proof.Proof.Gen.KernelIdeal.Skeleton
import proofs.«171727_j48095043780825_1_alg».proof.Proof.Gen.KernelIdeal.Launch
import proofs.«171727_j48095043780825_1_alg».proof.Proof.Gen.KernelIdeal.Points
import proofs.«171727_j48095043780825_1_alg».proof.Proof.Gen.KernelIdeal.Frame
import proofs.«171727_j48095043780825_1_alg».proof.Proof.Gen.ReferenceIdeal
import proofs.«171727_j48095043780825_1_alg».proof.Proof.Gen.ReferenceIdeal.Run
import proofs.«171727_j48095043780825_1_alg».proof.Proof.Gen.ReferenceIdeal.Read
import proofs.«171727_j48095043780825_1_alg».proof.Proof.Gen.Pre_finite_inputs
import proofs.«171727_j48095043780825_1_alg».proof.Proof.ResultRun
import proofs.«171727_j48095043780825_1_alg».proof.Proof.HopChain
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel :=
  fun m ρ _ => Cert.Kernel.Gen.frame m ρ

/-- So does its idealization. -/
theorem frame_kernelIdeal : Cert.frame_KernelIdeal :=
  fun m ρ _ => Cert.KernelIdeal.Gen.frame m ρ

/-- The reference is host operations only: its frame is its run with the result forgotten. -/
theorem frame_reference : Cert.frame_ReferenceIdeal :=
  fun m ρ _ => (θ_run Cert.ReferenceIdeal.defs _ _).mono (fun _ h c => (h c).2)
    (Cert.ReferenceIdeal.Value.run (F := Ideal) m ρ)

/-- From memories that agree on the nine arguments both programs, read at the ideal instance, end with the final sum's buffer at the
    reference's result stage of those arguments: the kernel by `Chain.result_eq` over its run, the reference by its own
    run read as that stage, with the agreement rewritten. -/
theorem algebraic :
    Cert.algebraic_KernelIdeal_ReferenceIdeal := by
  intro m ρ m' ρ' _ hagree
  refine ⟨fun c => Cert.KernelIdeal.Gen.W5 m ρ c (Proc.devRef .tc Cert.KernelIdeal.main_v74),
    Cert.KernelIdeal.Whole.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v86_eq, h0, h1, h2, h3, h4, h5, h6, h7, h8]
  exact (Cert.KernelIdeal.Chain.result_eq m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
